-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x128x128 : Shape := ⟨4, ![16, 512, 128, 128]⟩
abbrev S16x29x128x128 : Shape := ⟨4, ![16, 29, 128, 128]⟩
abbrev S_ : Shape := ⟨0, ![]⟩

class Facts : Prop where
  bcast_S_S16x512x128x128 : S_.BroadcastsInDim S16x512x128x128 (![] : Fin 0 → Fin S16x512x128x128.rank)
  reducesTo_S16x512x128x128_S_d0_1_2_3 : S16x512x128x128.ReducesTo [0, 1, 2, 3] S_
  h_S_ : 0 < S_.numel
  bcast_S_S16x29x128x128 : S_.BroadcastsInDim S16x29x128x128 (![] : Fin 0 → Fin S16x29x128x128.rank)
  reducesTo_S16x29x128x128_S_d0_1_2_3 : S16x29x128x128.ReducesTo [0, 1, 2, 3] S_

variable [Facts]

def fn {F : FTy → Type} [FloatOps F] (main_arg0 : FVec F S16x512x128x128 .f32) (main_arg1 : FVec F S16x29x128x128 .f32) : IVec S_ 1 :=
  let main_v0 : FVec F S16x512x128x128 .f32 := Host.absf main_arg0
  let main_cst : FVec F S_ .f32 := constant S_ .f32 0x7F800000#32
  let main_v1 : FVec F S16x512x128x128 .f32 := broadcastInDim S16x512x128x128 ![] bcast_S_S16x512x128x128 main_cst
  let main_v2 : IVec S16x512x128x128 1 := cmpf .olt main_v0 main_v1
  let main_c : IVec S_ 1 := constantI S_ 1 1#1
  let main_v3 : IVec S_ 1 := (fun x v => Host.reduce IntOp.andi x v reducesTo_S16x512x128x128_S_d0_1_2_3 h_S_) main_v2 main_c
  let main_v4 : FVec F S16x29x128x128 .f32 := Host.absf main_arg1
  let main_cst_0 : FVec F S_ .f32 := constant S_ .f32 0x7F800000#32
  let main_v5 : FVec F S16x29x128x128 .f32 := broadcastInDim S16x29x128x128 ![] bcast_S_S16x29x128x128 main_cst_0
  let main_v6 : IVec S16x29x128x128 1 := cmpf .olt main_v4 main_v5
  let main_c_1 : IVec S_ 1 := constantI S_ 1 1#1
  let main_v7 : IVec S_ 1 := (fun x v => Host.reduce IntOp.andi x v reducesTo_S16x29x128x128_S_d0_1_2_3 h_S_) main_v6 main_c_1
  let main_v8 : IVec S_ 1 := andi main_v3 main_v7
  main_v8
-- ==== Kernel.lean ====
abbrev S16x512x128x128 : Shape := ⟨4, ![16, 512, 128, 128]⟩
abbrev S16x29x128x128 : Shape := ⟨4, ![16, 29, 128, 128]⟩
abbrev S16x29x16384 : Shape := ⟨3, ![16, 29, 16384]⟩
abbrev S16x512x16384 : Shape := ⟨3, ![16, 512, 16384]⟩
abbrev S16x29x512 : Shape := ⟨3, ![16, 29, 512]⟩
abbrev S1x29x16384 : Shape := ⟨3, ![1, 29, 16384]⟩
abbrev S1x128x16384 : Shape := ⟨3, ![1, 128, 16384]⟩
abbrev S1x29x128 : Shape := ⟨3, ![1, 29, 128]⟩
abbrev S29x16384 : Shape := ⟨2, ![29, 16384]⟩
abbrev S29 : Shape := ⟨1, ![29]⟩
abbrev S29x1 : Shape := ⟨2, ![29, 1]⟩
abbrev S128x16384 : Shape := ⟨2, ![128, 16384]⟩
abbrev S29x128 : Shape := ⟨2, ![29, 128]⟩
abbrev S16x512x29 : Shape := ⟨3, ![16, 512, 29]⟩
abbrev S16x512x29x1 : Shape := ⟨4, ![16, 512, 29, 1]⟩

abbrev nBuf : Space → Nat
  | .hbm => 7
  | .vmem => 7
  | .smem => 0
  | _ => 0

abbrev bufTy : (tb : Table) → Fin (tcTables nBuf tb) → BufTy
  | .hbm, ⟨0, _⟩ => ⟨S16x512x128x128, .f32⟩
  | .hbm, ⟨1, _⟩ => ⟨S16x29x128x128, .f32⟩
  | .hbm, ⟨2, _⟩ => ⟨S16x29x16384, .f32⟩
  | .hbm, ⟨3, _⟩ => ⟨S16x512x16384, .f32⟩
  | .hbm, ⟨4, _⟩ => ⟨S16x29x512, .f32⟩
  | .hbm, ⟨5, _⟩ => ⟨S16x512x29, .f32⟩
  | .hbm, ⟨6, _⟩ => ⟨S16x512x29x1, .f32⟩
  | .local _ .vmem, ⟨0, _⟩ => ⟨S1x29x16384, .f32⟩
  | .local _ .vmem, ⟨1, _⟩ => ⟨S1x29x16384, .f32⟩
  | .local _ .vmem, ⟨2, _⟩ => ⟨S1x128x16384, .f32⟩
  | .local _ .vmem, ⟨3, _⟩ => ⟨S1x128x16384, .f32⟩
  | .local _ .vmem, ⟨4, _⟩ => ⟨S1x29x128, .f32⟩
  | .local _ .vmem, ⟨5, _⟩ => ⟨S1x29x128, .f32⟩
  | .local _ .vmem, ⟨6, _⟩ => ⟨S29x16384, .bf16⟩
  | _, _ => ⟨S16x512x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x29x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x128x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x29x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S16x29x128x128_S16x29x16384 : S16x29x128x128.ShapeCasts S16x29x16384
  shapeCasts_S16x512x128x128_S16x512x16384 : S16x512x128x128.ShapeCasts S16x512x16384
  inb_S1x29x16384_S1x29x16384_0_0_0 : ∀ a, (![0, 0, 0] : Fin 3 → Nat) a + S1x29x16384.size a ≤ S1x29x16384.size a
  h_S1x29x16384 : 0 < S1x29x16384.numel
  shapeCasts_S1x29x16384_S29x16384 : S1x29x16384.ShapeCasts S29x16384
  reduces_S29x16384_S29 : S29x16384.Reduces [1] S29
  shapeCasts_S29_S29x1 : S29.ShapeCasts S29x1
  broadcasts_S29x1_S29x16384 : S29x1.Broadcasts S29x16384
  bitsLt_bf16_f32 : FTy.bits .bf16 < FTy.bits .f32
  inb_S29x16384_S29x16384_0_0 : ∀ a, (![0, 0] : Fin 2 → Nat) a + S29x16384.size a ≤ S29x16384.size a
  h_S29x16384 : 0 < S29x16384.numel
  shapeCasts_S29x16384_S29x16384 : S29x16384.ShapeCasts S29x16384
  packedbf16_S29x16384_S29x16384_0_0 : (Rect.unit (s := S29x16384) ![0, 0] S29x16384.size inb_S29x16384_S29x16384_0_0).PackedRows (EltTy.packing .bf16)
  inb_S1x128x16384_S1x128x16384_0_0_0 : ∀ a, (![0, 0, 0] : Fin 3 → Nat) a + S1x128x16384.size a ≤ S1x128x16384.size a
  h_S1x128x16384 : 0 < S1x128x16384.numel
  shapeCasts_S1x128x16384_S128x16384 : S1x128x16384.ShapeCasts S128x16384
  inb_S1x29x128_S1x29x128_0_0_0 : ∀ a, (![0, 0, 0] : Fin 3 → Nat) a + S1x29x128.size a ≤ S1x29x128.size a
  h_S1x29x128 : 0 < S1x29x128.numel
  shapeCasts_S1x29x128_S29x128 : S1x29x128.ShapeCasts S29x128
  shapeCasts_S29x128_S1x29x128 : S29x128.ShapeCasts S1x29x128
  transposes_S16x29x512_S16x512x29_0_2_1 : S16x29x512.Transposes [0, 2, 1] S16x512x29
  bcast_S16x512x29_S16x512x29x1_0_1_2 : S16x512x29.BroadcastsInDim S16x512x29x1 (![0, 1, 2] : Fin 3 → Fin S16x512x29x1.rank)
  dot_S29x16384_S128x16384_S29x128_1_1_0_0_n_n_wf : DotDims.WF S29x16384 S128x16384 S29x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x29x16384.size a ≤ S16x29x16384.size a
  hwx0_0 : ∀ i : grid0.Coords, EltTy.bits .f32 = 32 ∨ (Rect.block (s := S16x29x16384) S1x29x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x16384.size a ≤ S16x512x16384.size a
  hwx0_1 : ∀ i : grid0.Coords, EltTy.bits .f32 = 32 ∨ (Rect.block (s := S16x512x16384) S1x128x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x29x128.size a ≤ S16x29x512.size a
  hwx0_2 : ∀ i : grid0.Coords, EltTy.bits .f32 = 32 ∨ (Rect.block (s := S16x29x512) S1x29x128.size (cc0_transform_2 i) (hinb0_2 i)).WholeWords (EltTy.packing .f32)

variable [Facts₀]

def dot_S29x16384_S128x16384_S29x128_1_1_0_0_n_n : DotDims S29x16384 S128x16384 S29x128 where
  lhsContracting := [1]
  rhsContracting := [1]
  lhsNonContracting := [0]
  rhsNonContracting := [0]
  lhsBatch := []
  rhsBatch := []
  wf := dot_S29x16384_S128x16384_S29x128_1_1_0_0_n_n_wf

abbrev win0_0 : Pipeline.Window sig grid0 :=
  Pipeline.Window.ofSpec (Memref.whole main_v0) S1x29x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x128x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x29x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x512x128x128 : Shape := ⟨4, ![16, 512, 128, 128]⟩
abbrev S16x29x128x128 : Shape := ⟨4, ![16, 29, 128, 128]⟩
abbrev S16x29x16384 : Shape := ⟨3, ![16, 29, 16384]⟩
abbrev S16x512x16384 : Shape := ⟨3, ![16, 512, 16384]⟩
abbrev S_ : Shape := ⟨0, ![]⟩
abbrev S16x29 : Shape := ⟨2, ![16, 29]⟩
abbrev S16x29x1 : Shape := ⟨3, ![16, 29, 1]⟩
abbrev S16x29x512 : Shape := ⟨3, ![16, 29, 512]⟩
abbrev S16x512x29 : Shape := ⟨3, ![16, 512, 29]⟩
abbrev S16x512x29x1 : Shape := ⟨4, ![16, 512, 29, 1]⟩

abbrev nBuf : Space → Nat
  | .hbm => 24
  | .vmem => 0
  | .smem => 0
  | _ => 0

abbrev bufTy : (tb : Table) → Fin (tcTables nBuf tb) → BufTy
  | .hbm, ⟨0, _⟩ => ⟨S16x512x128x128, .f32⟩
  | .hbm, ⟨1, _⟩ => ⟨S16x29x128x128, .f32⟩
  | .hbm, ⟨2, _⟩ => ⟨S16x29x16384, .f32⟩
  | .hbm, ⟨3, _⟩ => ⟨S16x512x16384, .f32⟩
  | .hbm, ⟨4, _⟩ => ⟨S_, .f32⟩
  | .hbm, ⟨5, _⟩ => ⟨S16x29x16384, .f32⟩
  | .hbm, ⟨6, _⟩ => ⟨S16x29x16384, .f32⟩
  | .hbm, ⟨7, _⟩ => ⟨S_, .f32⟩
  | .hbm, ⟨8, _⟩ => ⟨S16x29, .f32⟩
  | .hbm, ⟨9, _⟩ => ⟨S_, .f32⟩
  | .hbm, ⟨10, _⟩ => ⟨S16x29, .f32⟩
  | .hbm, ⟨11, _⟩ => ⟨S16x29, .f32⟩
  | .hbm, ⟨12, _⟩ => ⟨S16x29x1, .f32⟩
  | .hbm, ⟨13, _⟩ => ⟨S16x29x16384, .f32⟩
  | .hbm, ⟨14, _⟩ => ⟨S16x29x16384, .f32⟩
  | .hbm, ⟨15, _⟩ => ⟨S16x29x16384, .f32⟩
  | .hbm, ⟨16, _⟩ => ⟨S_, .f32⟩
  | .hbm, ⟨17, _⟩ => ⟨S16x29, .f32⟩
  | .hbm, ⟨18, _⟩ => ⟨S16x29x1, .f32⟩
  | .hbm, ⟨19, _⟩ => ⟨S16x29x16384, .f32⟩
  | .hbm, ⟨20, _⟩ => ⟨S16x29x16384, .f32⟩
  | .hbm, ⟨21, _⟩ => ⟨S16x29x512, .f32⟩
  | .hbm, ⟨22, _⟩ => ⟨S16x512x29, .f32⟩
  | .hbm, ⟨23, _⟩ => ⟨S16x512x29x1, .f32⟩
  | _, _ => ⟨S16x512x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]

class Facts₀ : Prop where
  shapeCasts_S16x29x128x128_S16x29x16384 : S16x29x128x128.ShapeCasts S16x29x16384
  shapeCasts_S16x512x128x128_S16x512x16384 : S16x512x128x128.ShapeCasts S16x512x16384
  bcast_S_S16x29x16384 : S_.BroadcastsInDim S16x29x16384 (![] : Fin 0 → Fin S16x29x16384.rank)
  reducesTo_S16x29x16384_S16x29_d2 : S16x29x16384.ReducesTo [2] S16x29
  h_S_ : 0 < S_.numel
  bcast_S_S16x29 : S_.BroadcastsInDim S16x29 (![] : Fin 0 → Fin S16x29.rank)
  bcast_S16x29_S16x29x1_0_1 : S16x29.BroadcastsInDim S16x29x1 (![0, 1] : Fin 2 → Fin S16x29x1.rank)
  bcast_S16x29x1_S16x29x16384_0_1_2 : S16x29x1.BroadcastsInDim S16x29x16384 (![0, 1, 2] : Fin 3 → Fin S16x29x16384.rank)
  transposes_S16x29x512_S16x512x29_0_2_1 : S16x29x512.Transposes [0, 2, 1] S16x512x29
  bcast_S16x512x29_S16x512x29x1_0_1_2 : S16x512x29.BroadcastsInDim S16x512x29x1 (![0, 1, 2] : Fin 3 → Fin S16x512x29x1.rank)
  dot_S16x29x16384_S16x512x16384_S16x29x512_2_2_1_1_0_0_wf : DotDims.WF S16x29x16384 S16x512x16384 S16x29x512 [2] [2] [1] [1] [0] [0]

variable [Facts₀]

def dot_S16x29x16384_S16x512x16384_S16x29x512_2_2_1_1_0_0 : DotDims S16x29x16384 S16x512x16384 S16x29x512 where
  lhsContracting := [2]
  rhsContracting := [2]
  lhsNonContracting := [1]
  rhsNonContracting := [1]
  lhsBatch := [0]
  rhsBatch := [0]
  wf := dot_S16x29x16384_S16x512x16384_S16x29x512_2_2_1_1_0_0_wf

class Facts : Prop extends Facts₀ where

variable [Facts]
-- ==== Proof.Pieces.lean ====
/-
  What one run of the kernel body leaves behind, as values of what it loaded.

  The body has two cases. At the first channel tile of a batch entry it computes the softmax weights of the
  loaded score block, stores them whole into the scratch buffer, reads them back, and stores the contraction of
  those weights with the loaded feature block into the output block. At every other channel tile it only reads
  the scratch buffer — holding what the point before left there — and stores the contraction. Each store covers
  its whole buffer, so what a buffer holds afterwards is the stored value itself:

      first tile :  scratch = softmaxBlock scores,   output = contraction features (softmaxBlock scores)
      other tiles:  scratch unchanged,               output = contraction features scratch

  with `softmaxBlock` and `contraction` the body's two stored values (`k0_pay1`, `k0_pay2`), whatever the
  float instance.
-/
import proofs.«151106_j38611755991120_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A later channel tile: the output block is the contraction of the feature block with what the scratch buffer
    held on entry (one store covering the block; its two loads read the whole feature buffer and the whole scratch). -/
theorem out_later (c : Dev nD) (i : grid0.Coords) (arg2 : Memref sig .tc .vmem S1x29x16384 .f32) (harg2 : arg2.IsWhole) (arg3 : Memref sig .tc .vmem S1x128x16384 .f32) (harg3 : arg3.IsWhole) (arg4 : Memref sig .tc .vmem S1x29x128 .f32) (harg4 : arg4.IsWhole) (arg5 : Memref sig .tc .vmem S29x16384 .bf16) (harg5 : arg5.IsWhole) (hc0 : ¬cond0_0 i)
    (x0 : Vec F S1x29x16384 .f32) (x1 : Vec F S1x128x16384 .f32) (xs0 : Vec F S29x16384 .bf16) :
    out0_B_2 c i arg2 harg2 arg3 harg3 arg4 harg4 arg5 harg5 hc0 x0 x1 xs0 = k0_pay2 x1 xs0 := by
  unfold out0_B_2
  rw [View.read_writes_eq_canon _ _ _ (cover0_B_2 c i arg2 harg2 arg3 harg3 arg4 harg4 arg5 harg5 hc0 x0 x1 xs0)]
  unfold kernelRun0_B
  dsimp only
  rw [View.canon_unit_zero hz3]
  simp only [View.readAt_eq_ld, harg3.read_unread, harg5.read_unread, View.ld_unit_zero (S := S1x128x16384) hz3, View.ld_unit_zero (S := S29x16384) hz2]

/-- The first channel tile: the scratch buffer ends at the softmax weights of the score block (one store covering it). -/
theorem scratch_first (c : Dev nD) (i : grid0.Coords) (arg2 : Memref sig .tc .vmem S1x29x16384 .f32) (harg2 : arg2.IsWhole) (arg3 : Memref sig .tc .vmem S1x128x16384 .f32) (harg3 : arg3.IsWhole) (arg4 : Memref sig .tc .vmem S1x29x128 .f32) (harg4 : arg4.IsWhole) (arg5 : Memref sig .tc .vmem S29x16384 .bf16) (harg5 : arg5.IsWhole) (hc0 : cond0_0 i)
    (x0 : Vec F S1x29x16384 .f32) (x1 : Vec F S1x128x16384 .f32) :
    sout0_A_0 c i arg2 harg2 arg3 harg3 arg4 harg4 arg5 harg5 hc0 x0 x1 = k0_pay1 x0 := by
  unfold sout0_A_0
  rw [View.read_writes_eq_canon _ _ _ (scover0_A_0 c i arg2 harg2 arg3 harg3 arg4 harg4 arg5 harg5 hc0 x0 x1)]
  unfold kernelRun0_A
  dsimp only
  sl_unfold_words
  rw [View.canon_unit_zero (S := S29x16384) hz2]
  simp only [View.readAt_eq_ld, harg2.read_unread, View.ld_unit_zero (S := S1x29x16384) hz3]

/-- The first channel tile: the output block is the contraction of the feature block with the weights just stored
    (the load of the scratch buffer after the covering store reads the stored value). -/
theorem out_first (c : Dev nD) (i : grid0.Coords) (arg2 : Memref sig .tc .vmem S1x29x16384 .f32) (harg2 : arg2.IsWhole) (arg3 : Memref sig .tc .vmem S1x128x16384 .f32) (harg3 : arg3.IsWhole) (arg4 : Memref sig .tc .vmem S1x29x128 .f32) (harg4 : arg4.IsWhole) (arg5 : Memref sig .tc .vmem S29x16384 .bf16) (harg5 : arg5.IsWhole) (hc0 : cond0_0 i)
    (x0 : Vec F S1x29x16384 .f32) (x1 : Vec F S1x128x16384 .f32) :
    out0_A_2 c i arg2 harg2 arg3 harg3 arg4 harg4 arg5 harg5 hc0 x0 x1 = k0_pay2 x1 (k0_pay1 x0) := by
  unfold out0_A_2
  rw [View.read_writes_eq_canon _ _ _ (cover0_A_2 c i arg2 harg2 arg3 harg3 arg4 harg4 arg5 harg5 hc0 x0 x1)]
  unfold kernelRun0_A
  dsimp only
  sl_unfold_words
  rw [View.canon_unit_zero (S := S1x29x128) hz3, View.readCov_unit_zero (S := S29x16384) _ hz2]
  simp only [View.readAt_eq_ld, harg2.read_unread, harg3.read_unread, View.ld_unit_zero (S := S1x29x16384) hz3, View.ld_unit_zero (S := S1x128x16384) hz3]

end Cert.KernelIdeal.Pieces

end
-- ==== Proof.Softmax.lean ====
/-
  Softmax-weighted pooling on the extended reals: the function both programs compute.

  A row `p` of 16384 scores is multiplied entry by entry by the unit factor `u` (the f32 pattern of 1.0; the same
  word in both programs, kept as a pattern and never evaluated), shifted by its largest entry `M p` (the maximum
  taken from −∞), exponentiated, and divided by the sum of the exponentials:

      weight p s = exp (p s · u − M p) / ∑ s', exp (p s' · u − M p),      M p = max (−∞, max over s of p s · u).

  For a batch entry `b`, a class `k` and a channel `c` the pooled feature is the weighted sum over the positions

      pooledAt P Q b k c = ∑ s, weight (P (b, k, ·)) s · Q (b, c, s).

  Two small order facts let the two programs' spellings meet: taking the maximum with −∞ once more changes nothing
  (`max_negInf_rowMax`), and the unit factor may stand on either side of the product (`scaled_comm`). Neither
  needs the scores to be finite.
-/
import Idealize.ShloMosaic.PureOps.Ideal
import Idealize.ShloMosaic.Lib.ValueIdx

noncomputable section

namespace Cert.Pooling

open Idealize.ShloMosaic Idealize.ShloMosaic.ValueIdx

/-- The unit factor the scores are multiplied by: the f32 pattern of `1.0`. -/
abbrev unitFactor : EReal := Ideal.ofBits .f32 0x3F800000#32
/-- The value the row maximum starts from: the f32 pattern of `−∞`. -/
abbrev negInf : EReal := Ideal.ofBits .f32 0xFF800000#32

/-- A row of scores times the unit factor. -/
def scaled (p : Fin 16384 → EReal) : Fin 16384 → EReal := fun s => p s * unitFactor

/-- The largest scaled score of a row, the maximum taken from `−∞`. -/
def rowMax (p : Fin 16384 → EReal) : EReal := (Finset.univ : Finset (Fin 16384)).fold max negInf (scaled p)

/-- The exponential of a scaled score shifted by the row's maximum. -/
def rowExp (p : Fin 16384 → EReal) : Fin 16384 → EReal := fun s => Ideal.exp (scaled p s - rowMax p)

/-- The softmax weight of position `s` in the row. -/
def weight (p : Fin 16384 → EReal) : Fin 16384 → EReal := fun s => Ideal.div (rowExp p s) (∑ s' : Fin 16384, rowExp p s')

/-- The scores, one row per batch entry and class; the features, one row per batch entry and channel. -/
abbrev Scores := (⟨3, ![16, 29, 16384]⟩ : Shape).Idx → EReal
abbrev Features := (⟨3, ![16, 512, 16384]⟩ : Shape).Idx → EReal

/-- The score row of batch entry `b` and class `k`. -/
def scoreRow (P : Scores) (b : Fin 16) (k : Fin 29) : Fin 16384 → EReal := fun s => P (ix3 b k s)

/-- The pooled feature of batch entry `b`, class `k`, channel `c`: the features of `(b, c)` summed over the
    positions with the softmax weights of the scores of `(b, k)`. -/
def pooledAt (P : Scores) (Q : Features) (b : Fin 16) (k : Fin 29) (c : Fin 512) : EReal :=
  ∑ s : Fin 16384, weight (scoreRow P b k) s * Q (ix3 b c s)

/-- The pooled features as an array indexed by (batch entry, class, channel). -/
def pooled (P : Scores) (Q : Features) : (⟨3, ![16, 29, 512]⟩ : Shape).Idx → EReal :=
  fun i => pooledAt P Q (i 0) (i 1) (i 2)

theorem pooled_ix3 (P : Scores) (Q : Features) (b : Fin 16) (k : Fin 29) (c : Fin 512) :
    pooled P Q (ix3 b k c) = pooledAt P Q b k c := rfl

/-- The row maximum is taken from `−∞`, so it is at least `−∞`: -/
theorem negInf_le_rowMax (p : Fin 16384 → EReal) : negInf ≤ rowMax p :=
  (Finset.le_fold_max negInf).mpr (Or.inl le_rfl)

/-- and taking the maximum with `−∞` once more changes nothing. -/
theorem max_negInf_rowMax (p : Fin 16384 → EReal) : max negInf (rowMax p) = rowMax p :=
  max_eq_right (negInf_le_rowMax p)

/-- The unit factor may stand on the left of the product. -/
theorem scaled_comm (p : Fin 16384 → EReal) : (fun s => unitFactor * p s) = scaled p :=
  funext fun s => mul_comm _ _

end Cert.Pooling

end
-- ==== Proof.Payloads.lean ====
/-
  The body's two stored values, read entry by entry on the extended reals.

  The first (the scratch contents) is the softmax of the score block along the positions: row `k`, position `s` of
  it is `Pooling.weight` of row `k` of the block at `s`. It is built from four steps, each read at an index here: the
  block with its leading unit axis dropped and multiplied by the unit factor; the exponential of each entry
  shifted by its row's maximum (a lane maximum, kept as a column and spread back over the row); the division of
  each entry by its row's sum (a lane sum, spread back the same way); a change of float format, which is the
  identity on the extended reals.

  The second (the output block) contracts the scratch contents with the feature block over the positions into a
  zero accumulator: class `k`, channel `c` of it is `∑ s, scratch (k, s) · features (c, s)`.
-/
import proofs.«151106_j38611755991120_2_alg».proof.Proof.Gen.KernelIdeal.Skeleton
import proofs.«151106_j38611755991120_2_alg».proof.Proof.Softmax
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payloads

open Idealize.ShloMosaic Idealize.ShloMosaic.ValueIdx
open Cert.KernelIdeal Cert.KernelIdeal.Gen Cert.Pooling

/-! ## Rows of a [29, 16384] block: maximum, sum, and a column spread back over the rows -/

/-- Row `k` of a [29] vector of row results, with position `s` inserted on the reduced axis, is entry `(k, s)`. -/
theorem lift_eq (h : S29x16384.Reduces [1] S29) (k : Fin 29) (s : Fin 16384) : h.lift (ix1 k) s = ix2 k s :=
  funext fun a => Fin.ext (by match a with | ⟨0, _⟩ => rfl | ⟨1, _⟩ => rfl)

/-- The lane maximum of each row, from `−∞`. -/
def rowMaxVec (v : FVec Ideal S29x16384 .f32) : FVec Ideal S29 .f32 :=
  multiReduction .maximumf [1] S29 v 0xFF800000#32 reduces_S29x16384_S29 (.inl rfl) rfl

theorem rowMaxVec_apply (v : FVec Ideal S29x16384 .f32) (k : Fin 29) :
    rowMaxVec v (ix1 k) = (Finset.univ : Finset (Fin 16384)).fold max negInf (fun s => v (ix2 k s)) := by
  unfold rowMaxVec
  refine (Ideal.multiReduction_maximumf_single v _ reduces_S29x16384_S29 _ _ (ix1 k)).trans ?_
  exact congrArg (Finset.univ.fold max _) (funext fun s => congrArg v (lift_eq _ k s))

/-- The lane sum of each row. -/
def rowSumVec (v : FVec Ideal S29x16384 .f32) : FVec Ideal S29 .f32 :=
  multiReduction .add [1] S29 v 0x00000000#32 reduces_S29x16384_S29 (.inl rfl) rfl

theorem rowSumVec_apply (v : FVec Ideal S29x16384 .f32) (k : Fin 29) :
    rowSumVec v (ix1 k) = ∑ s : Fin 16384, v (ix2 k s) := by
  unfold rowSumVec
  refine (Ideal.multiReduction_add_single v _ reduces_S29x16384_S29 _ _ (ix1 k)).trans ?_
  exact Finset.sum_congr rfl fun s _ => congrArg v (lift_eq _ k s)

/-- A [29] vector of row results kept as a [29, 1] column and spread over the 16384 positions of each row. -/
def column (r : FVec Ideal S29 .f32) : FVec Ideal S29x16384 .f32 :=
  broadcastTo S29x16384 (shapeCast S29x1 r shapeCasts_S29_S29x1) broadcasts_S29x1_S29x16384

theorem column_apply (r : FVec Ideal S29 .f32) (k : Fin 29) (s : Fin 16384) : column r (ix2 k s) = r (ix1 k) := by
  unfold column
  refine (broadcastTo_apply _ broadcasts_S29x1_S29x16384 (ix2 k s) (ix2 k (0 : Fin 1)) fun a => ?_).trans ?_
  · match a with
    | ⟨0, _⟩ => show k.val = if (29 : Nat) = 1 then 0 else k.val; rw [if_neg (by decide)]
    | ⟨1, _⟩ => show 0 = if (1 : Nat) = 1 then 0 else s.val; rw [if_pos rfl]
  · exact shapeCast_apply r shapeCasts_S29_S29x1 _ (ix1 k) (by
      rw [Shape.rowMajor_val_one, Shape.rowMajor_val_two]
      show k.val = k.val * 1 + 0
      omega)

/-! ## The softmax of the score block -/

/-- The score block without its leading unit axis, times the unit factor. -/
def scaledBlock (x0 : FVec Ideal S1x29x16384 .f32) : FVec Ideal S29x16384 .f32 :=
  mulf (shapeCast S29x16384 x0 shapeCasts_S1x29x16384_S29x16384) (broadcast S29x16384 (Scalar.ofBits .f32 0x3F800000#32))

theorem scaledBlock_apply (x0 : FVec Ideal S1x29x16384 .f32) (k : Fin 29) (s : Fin 16384) :
    scaledBlock x0 (ix2 k s) = x0 (ix3 (0 : Fin 1) k s) * unitFactor := by
  unfold scaledBlock
  rw [mulf_apply, shapeCast_1ab_ab_apply, broadcast_apply]
  rfl

/-- Each entry shifted by its row's maximum, exponentiated. -/
def expShift (v : FVec Ideal S29x16384 .f32) : FVec Ideal S29x16384 .f32 := exp (subf v (column (rowMaxVec v)))

theorem expShift_apply (v : FVec Ideal S29x16384 .f32) (k : Fin 29) (s : Fin 16384) :
    expShift v (ix2 k s)
      = Ideal.exp (v (ix2 k s) - (Finset.univ : Finset (Fin 16384)).fold max negInf (fun s' => v (ix2 k s'))) := by
  show Ideal.exp (v (ix2 k s) - column (rowMaxVec v) (ix2 k s)) = _
  rw [column_apply, rowMaxVec_apply]

/-- Each entry divided by its row's sum. -/
def normalise (e : FVec Ideal S29x16384 .f32) : FVec Ideal S29x16384 .f32 := divf e (column (rowSumVec e))

theorem normalise_apply (e : FVec Ideal S29x16384 .f32) (k : Fin 29) (s : Fin 16384) :
    normalise e (ix2 k s) = Ideal.div (e (ix2 k s)) (∑ s' : Fin 16384, e (ix2 k s')) := by
  unfold normalise
  rw [divf_apply, column_apply, rowSumVec_apply]

/-- The scratch contents the body stores are these four steps composed (the stored value's intermediate values, one
    by one, are the steps' definitions). -/
theorem softmaxBlock_eq (x0 : FVec Ideal S1x29x16384 .f32) :
    k0_pay1 (F := Ideal) x0
      = shapeCast S29x16384 (truncf .bf16 (normalise (expShift (scaledBlock x0))) bitsLt_bf16_f32) shapeCasts_S29x16384_S29x16384 := rfl

/-- Row `k`, position `s` of the scratch contents: the softmax weight of position `s` in row `k` of the score block. -/
theorem softmaxBlock_apply (x0 : FVec Ideal S1x29x16384 .f32) (k : Fin 29) (s : Fin 16384) :
    k0_pay1 (F := Ideal) x0 (ix2 k s) = weight (fun s' => x0 (ix3 (0 : Fin 1) k s')) s := by
  rw [softmaxBlock_eq, shapeCast_self, truncf_apply, normalise_apply]
  simp only [expShift_apply, scaledBlock_apply]
  rfl

/-! ## The contraction over the positions -/

/-- The body's contraction: class rows against channel rows, contracted over the positions. -/
abbrev posDot := dot_S29x16384_S128x16384_S29x128_1_1_0_0_n_n

theorem lhs_row (j : S29x128.Idx) (q : posDot.contr.Idx) : (posDot.lhsIdx j q 0).val = (j 0).val := by
  unfold DotDims.lhsIdx
  rw [dif_neg (show ¬(0 : Fin S29x16384.rank) ∈ posDot.lhsBatch by decide), dif_pos (show (0 : Fin S29x16384.rank) ∈ posDot.lhsNonContracting by decide)]
  rfl
theorem lhs_pos (j : S29x128.Idx) (q : posDot.contr.Idx) : (posDot.lhsIdx j q 1).val = (q ⟨0, by decide⟩).val :=
  posDot.lhsIdx_val_of_single rfl j q
theorem rhs_row (j : S29x128.Idx) (q : posDot.contr.Idx) : (posDot.rhsIdx j q 0).val = (j 1).val := by
  unfold DotDims.rhsIdx
  rw [dif_neg (show ¬(0 : Fin S128x16384.rank) ∈ posDot.rhsBatch by decide), dif_pos (show (0 : Fin S128x16384.rank) ∈ posDot.rhsNonContracting by decide)]
  rfl
theorem rhs_pos (j : S29x128.Idx) (q : posDot.contr.Idx) : (posDot.rhsIdx j q 1).val = (q ⟨0, by decide⟩).val :=
  posDot.rhsIdx_val_of_single rfl j q

/-- The output block the body stores, of the scratch contents `a` and the feature block `x1`. -/
def contract (a : FVec Ideal S29x16384 .bf16) (x1 : FVec Ideal S1x128x16384 .f32) : FVec Ideal S1x29x128 .f32 :=
  shapeCast S1x29x128 (matmul posDot none a
    (truncf .bf16 (shapeCast S128x16384 x1 shapeCasts_S1x128x16384_S128x16384) bitsLt_bf16_f32)
    (constant S29x128 .f32 0x00000000#32)) shapeCasts_S29x128_S1x29x128

theorem contraction_eq (x1 : FVec Ideal S1x128x16384 .f32) (a : FVec Ideal S29x16384 .bf16) :
    k0_pay2 (F := Ideal) x1 a = contract a x1 := rfl

/-- Class `k`, channel `c` of the output block: the sum over the positions of scratch `(k, s)` times feature `(c, s)`
    (the matrix product into the zero accumulator is the plain sum; its one contracted axis is the positions). -/
theorem contract_apply (a : FVec Ideal S29x16384 .bf16) (x1 : FVec Ideal S1x128x16384 .f32) (u : Fin 1) (k : Fin 29) (c : Fin 128) :
    contract a x1 (ix3 u k c) = ∑ s : Fin 16384, a (ix2 k s) * x1 (ix3 (0 : Fin 1) c s) := by
  unfold contract
  rw [shapeCast_ab_1ab_apply]
  refine (Ideal.matmul_constant_zero_apply posDot none a _ (ix2 k c)).trans ?_
  rw [← Equiv.sum_comp (contrEquiv1 posDot 16384 rfl rfl).symm]
  refine Finset.sum_congr rfl fun s _ => ?_
  have hs := contrEquiv1_symm_val posDot 16384 rfl rfl s
  have el : posDot.lhsIdx (ix2 k c) ((contrEquiv1 posDot 16384 rfl rfl).symm s) = ix2 k s := funext fun ax => Fin.ext (by
    match ax with
    | ⟨0, _⟩ => exact lhs_row _ _
    | ⟨1, _⟩ => exact (lhs_pos _ _).trans hs)
  have er : posDot.rhsIdx (ix2 k c) ((contrEquiv1 posDot 16384 rfl rfl).symm s) = ix2 c s := funext fun ax => Fin.ext (by
    match ax with
    | ⟨0, _⟩ => exact rhs_row _ _
    | ⟨1, _⟩ => exact (rhs_pos _ _).trans hs)
  rw [el, er]
  show a (ix2 k s) * shapeCast S128x16384 x1 shapeCasts_S1x128x16384_S128x16384 (ix2 c s) = _
  rw [shapeCast_1ab_ab_apply]

end Cert.KernelIdeal.Payloads

end
-- ==== Proof.Blocks.lean ====
/-
  From blocks to rows of the whole arrays.

  Batch entry `b`'s softmax weights form a [29, 16384] array, one row per class (`weightsOf`); channel tile
  `tile` of batch entry `b`'s pooled features forms a [1, 29, 128] block (`pooledBlock`), channel `128·tile + c` at
  column `c`. If a loaded score block is batch entry `b`'s rows of the score array, the stored softmax is
  `weightsOf` of `b`; and if the scratch buffer holds `weightsOf` of `b` while the loaded feature block is rows
  `128·tile … 128·tile + 127` of batch entry `b` of the feature array, the stored contraction is `pooledBlock` of
  `(b, tile)`: term by term the same sum over the positions.
-/
import proofs.«151106_j38611755991120_2_alg».proof.Proof.Payloads

noncomputable section

namespace Cert.KernelIdeal.Blocks

open Idealize.ShloMosaic Idealize.ShloMosaic.ValueIdx
open Cert.KernelIdeal Cert.KernelIdeal.Gen Cert.Pooling Cert.KernelIdeal.Payloads

/-- The softmax weights of batch entry `b`: row `k` is the weights of the scores of `(b, k)`. -/
def weightsOf (P : Scores) (b : Fin 16) : FVec Ideal S29x16384 .bf16 := fun j => weight (scoreRow P b (j 0)) (j 1)

theorem weightsOf_ix2 (P : Scores) (b : Fin 16) (k : Fin 29) (s : Fin 16384) :
    weightsOf P b (ix2 k s) = weight (scoreRow P b k) s := rfl

/-- Column `c` of channel tile `tile` is channel `128·tile + c`. -/
def channel (tile : Fin 4) (c : Fin 128) : Fin 512 :=
  ⟨tile.val * 128 + c.val, by have := tile.isLt; have := c.isLt; omega⟩

/-- Channel tile `tile` of batch entry `b`'s pooled features, as the [1, 29, 128] block the kernel writes back. -/
def pooledBlock (P : Scores) (Q : Features) (b : Fin 16) (tile : Fin 4) : FVec Ideal S1x29x128 .f32 :=
  fun y => pooledAt P Q b (y 1) (channel tile (y 2))

theorem pooledBlock_ix3 (P : Scores) (Q : Features) (b : Fin 16) (tile : Fin 4) (u : Fin 1) (k : Fin 29) (c : Fin 128) :
    pooledBlock P Q b tile (ix3 u k c) = pooledAt P Q b k (channel tile c) := rfl

/-- A score block that is batch entry `b`'s rows of `P` has `weightsOf P b` as its softmax. -/
theorem softmaxBlock_of_rows (P : Scores) (b : Fin 16) (x0 : FVec Ideal S1x29x16384 .f32)
    (hx : ∀ (k : Fin 29) (s : Fin 16384), x0 (ix3 (0 : Fin 1) k s) = P (ix3 b k s)) :
    k0_pay1 (F := Ideal) x0 = weightsOf P b := by
  funext j
  obtain ⟨k, s, rfl⟩ : ∃ (k : Fin 29) (s : Fin 16384), j = ix2 k s := ⟨j 0, j 1, eq_ix2 j⟩
  rw [softmaxBlock_apply x0 k s, weightsOf_ix2]
  exact congrArg (fun p => weight p s) (funext fun s' => hx k s')

/-- Contracting `weightsOf P b` with the feature block of `(b, tile)` gives the pooled block of `(b, tile)`. -/
theorem contraction_of_rows (P : Scores) (Q : Features) (b : Fin 16) (tile : Fin 4)
    (a : FVec Ideal S29x16384 .bf16) (x1 : FVec Ideal S1x128x16384 .f32) (ha : a = weightsOf P b)
    (hx : ∀ (c : Fin 128) (s : Fin 16384), x1 (ix3 (0 : Fin 1) c s) = Q (ix3 b (channel tile c) s)) :
    k0_pay2 (F := Ideal) x1 a = pooledBlock P Q b tile := by
  subst ha
  funext y
  obtain ⟨u, k, c, rfl⟩ : ∃ (u : Fin 1) (k : Fin 29) (c : Fin 128), y = ix3 u k c := ⟨y 0, y 1, y 2, eq_ix3 y⟩
  rw [contraction_eq, contract_apply (weightsOf P b) x1 u k c, pooledBlock_ix3]
  unfold pooledAt
  exact Finset.sum_congr rfl fun s _ => by rw [weightsOf_ix2, hx c s]

end Cert.KernelIdeal.Blocks

end
-- ==== Proof.Carried.lean ====
/-
  What the scratch buffer and the output block hold after each grid point.

  The grid has 64 points in row-major order: point `t` is batch entry `t / 4`, channel tile `t % 4`. The score
  window's block at `t` is batch entry `t / 4`'s rows of the score array (it does not move with the tile); the
  feature window's block is rows `128·(t % 4) … + 127` of batch entry `t / 4`; the output window's block is the
  same tile of the result.

  The scratch buffer is written only at the first tile of a batch entry and read at every tile. By induction on
  the point, after point `n` it holds the softmax weights of batch entry `n / 4`: at a first tile they are
  computed from the score block; at a later tile the buffer is untouched and `(n − 1) / 4 = n / 4`. Hence the
  output block after point `t` is tile `t % 4` of batch entry `t / 4`'s pooled features.
-/
import proofs.«151106_j38611755991120_2_alg».proof.Proof.Gen.KernelIdeal.Frame
import proofs.«151106_j38611755991120_2_alg».proof.Proof.Pieces
import proofs.«151106_j38611755991120_2_alg».proof.Proof.Blocks

noncomputable section

open Idealize.ShloMosaic Idealize.ShloMosaic.TcCoe Idealize.SL.Sem

namespace Cert.KernelIdeal.Carried

open Idealize.ShloMosaic.ValueIdx
open Cert.KernelIdeal Cert.KernelIdeal.Gen Cert.Pooling Cert.KernelIdeal.Blocks Cert.KernelIdeal.Pieces

variable (m : (ℓ : Loc nD τ sig) → Buf (Elt Ideal) ℓ)

/-- The score and feature arrays as the region finds them. -/
abbrev scores (c : Dev nD) : Scores := V m c main_v0
abbrev feats (c : Dev nD) : Features := V m c main_v1

theorem N64 : cfg0.N = 64 := N_0

/-- The batch entry and the channel tile of a grid point. -/
def batchOf (t : Fin cfg0.N) : Fin 16 := ⟨t.val / 4, by have := lt_of_lt_of_eq t.isLt N64; omega⟩
def tileOf (t : Fin cfg0.N) : Fin 4 := ⟨t.val % 4, Nat.mod_lt _ (by decide)⟩

/-- The three index maps, decided over the grid. -/
theorem idx_facts : ∀ t : Fin cfg0.N,
    win0_0.index t (0 : Fin 3) = t.val / 4 ∧ win0_0.index t (1 : Fin 3) = 0 ∧ win0_0.index t (2 : Fin 3) = 0
    ∧ win0_1.index t (0 : Fin 3) = t.val / 4 ∧ win0_1.index t (1 : Fin 3) = t.val % 4 ∧ win0_1.index t (2 : Fin 3) = 0
    ∧ win0_2.index t (0 : Fin 3) = t.val / 4 ∧ win0_2.index t (1 : Fin 3) = 0 ∧ win0_2.index t (2 : Fin 3) = t.val % 4 :=
  (by decide +kernel : ∀ t : Fin grid0.N, _)

/-- The score block at point `t` is batch entry `t / 4`'s rows of the score array. -/
theorem scoreBlock_apply (c : Dev nD) (t : Fin cfg0.N) (k : Fin 29) (s : Fin 16384) :
    iblk m c 0 t (ix3 (0 : Fin 1) k s) = scores m c (ix3 (batchOf t) k s) := by
  obtain ⟨e0, e1, e2, -⟩ := idx_facts t
  unfold iblk
  rw [View.read_apply]
  show V m c main_v0 (((cfg0.win 0).blk t).view.emb (ix3 (0 : Fin 1) k s)) = V m c main_v0 (ix3 (batchOf t) k s)
  refine congrArg (V m c main_v0) (funext fun a => Fin.ext ?_)
  match a with
  | ⟨0, _⟩ => show win0_0.index t (0 : Fin 3) * 1 + 1 * 0 = t.val / 4; omega
  | ⟨1, _⟩ => show win0_0.index t (1 : Fin 3) * 29 + 1 * k.val = k.val; omega
  | ⟨2, _⟩ => show win0_0.index t (2 : Fin 3) * 16384 + 1 * s.val = s.val; omega

/-- The feature block at point `t` is rows `128·(t % 4) + c'` of batch entry `t / 4` of the feature array. -/
theorem featBlock_apply (c : Dev nD) (t : Fin cfg0.N) (c' : Fin 128) (s : Fin 16384) :
    iblk m c 1 t (ix3 (0 : Fin 1) c' s) = feats m c (ix3 (batchOf t) (channel (tileOf t) c') s) := by
  obtain ⟨-, -, -, e0, e1, e2, -⟩ := idx_facts t
  unfold iblk
  rw [View.read_apply]
  show V m c main_v1 (((cfg0.win 1).blk t).view.emb (ix3 (0 : Fin 1) c' s)) = V m c main_v1 (ix3 (batchOf t) (channel (tileOf t) c') s)
  refine congrArg (V m c main_v1) (funext fun a => Fin.ext ?_)
  match a with
  | ⟨0, _⟩ => show win0_1.index t (0 : Fin 3) * 1 + 1 * 0 = t.val / 4; omega
  | ⟨1, _⟩ => show win0_1.index t (1 : Fin 3) * 128 + 1 * c'.val = t.val % 4 * 128 + c'.val; omega
  | ⟨2, _⟩ => show win0_1.index t (2 : Fin 3) * 16384 + 1 * s.val = s.val; omega

/-- After point `n` the scratch buffer holds the softmax weights of batch entry `n / 4`. -/
theorem scratch_after (c : Dev nD) : ∀ (n : ℕ) (hn : n < cfg0.N),
    (outsAt0 m c n hn).2 = weightsOf (scores m c) (batchOf ⟨n, hn⟩) := by
  intro n
  induction n with
  | zero =>
    intro hn
    have h0 : (⟨0, hn⟩ : Fin cfg0.N).val % 4 = 0 := rfl
    rw [outsAt0_A m c ⟨0, hn⟩ h0]
    dsimp only
    rw [scratch_first]
    exact softmaxBlock_of_rows (scores m c) (batchOf ⟨0, hn⟩) _ (scoreBlock_apply m c ⟨0, hn⟩)
  | succ n ih =>
    intro hn
    by_cases h0 : (⟨n + 1, hn⟩ : Fin cfg0.N).val % 4 = 0
    · rw [outsAt0_A m c ⟨n + 1, hn⟩ h0]
      dsimp only
      rw [scratch_first]
      exact softmaxBlock_of_rows (scores m c) (batchOf ⟨n + 1, hn⟩) _ (scoreBlock_apply m c ⟨n + 1, hn⟩)
    · rw [outsAt0_B m c ⟨n + 1, hn⟩ h0]
      show (outsAt0 m c n _).2 = _
      rw [ih (Nat.lt_of_succ_lt hn)]
      have hb : batchOf ⟨n, Nat.lt_of_succ_lt hn⟩ = batchOf ⟨n + 1, hn⟩ := Fin.ext (by
        show n / 4 = (n + 1) / 4
        have h0' : ¬(n + 1) % 4 = 0 := h0
        omega)
      rw [hb]

/-- After point `t` the output block holds tile `t % 4` of batch entry `t / 4`'s pooled features. -/
theorem output_after (c : Dev nD) (t : Fin cfg0.N) :
    (outsAt0 m c t.val t.isLt).1 = pooledBlock (scores m c) (feats m c) (batchOf t) (tileOf t) := by
  by_cases h0 : t.val % 4 = 0
  · rw [outsAt0_A m c t h0]
    dsimp only
    rw [out_first]
    exact contraction_of_rows (scores m c) (feats m c) (batchOf t) (tileOf t) _ _
      (softmaxBlock_of_rows (scores m c) (batchOf t) _ (scoreBlock_apply m c t))
      (featBlock_apply m c t)
  · rw [outsAt0_B m c t h0]
    dsimp only
    rw [out_later]
    refine contraction_of_rows (scores m c) (feats m c) (batchOf t) (tileOf t) _ _ ?_ (featBlock_apply m c t)
    rw [scratch_after m c (t.val - 1)]
    have hb : batchOf ⟨t.val - 1, Nat.lt_of_le_of_lt (Nat.sub_le _ _) t.isLt⟩ = batchOf t := Fin.ext (by
      show (t.val - 1) / 4 = t.val / 4
      omega)
    rw [hb]

end Cert.KernelIdeal.Carried

end
-- ==== Proof.Region.lean ====
/-
  The result array of the kernel's region.

  Every grid point writes its output block back. Point `t`'s block of the [16, 29, 512] array is batch entry
  `t / 4`, all 29 classes, channels `128·(t % 4) … + 127`; what the point writes there is that tile of the pooled
  features, so it is the block of the ONE array `pooled scores feats` (`flushed_eq`). The 64 blocks cover the
  array: entry `(b, k, ch)` lies in the block of point `4·b + ch / 128` (`covered`). So after the last point the
  array holds `pooled scores feats`.
-/
import proofs.«151106_j38611755991120_2_alg».proof.Proof.Carried
import Idealize.ShloMosaic.Lib.Pipeline.Value

noncomputable section

open Idealize.ShloMosaic Idealize.ShloMosaic.TcCoe Idealize.SL.Sem

namespace Cert.KernelIdeal.Region

open Idealize.ShloMosaic.ValueIdx
open Cert.KernelIdeal Cert.KernelIdeal.Gen Cert.Pooling Cert.KernelIdeal.Blocks Cert.KernelIdeal.Carried

variable (m : (ℓ : Loc nD τ sig) → Buf (Elt Ideal) ℓ)

/-- A [1, 29, 128] block `B` whose entry `(·, k, c')` is entry `(t / 4, k, 128·(t % 4) + c')` of an array `G` is what
    the output window reads of `G` at point `t`. -/
theorem block_read_eq (t : Fin cfg0.N) (B : FVec Ideal S1x29x128 .f32) (G : S16x29x512.Idx → EReal)
    (h : ∀ (u : Fin 1) (k : Fin 29) (c' : Fin 128), B (ix3 u k c') = G (ix3 (batchOf t) k (channel (tileOf t) c'))) :
    (cfg0.win 2).cut (grid0.coords t) B = ((cfg0.win 2).blk t).view.read (Elt Ideal) G := by
  obtain ⟨-, -, -, -, -, -, e0, e1, e2⟩ := idx_facts t
  funext y
  have h0 : (y 0).val < 1 := (y 0).isLt
  have h1 : (y 1).val < 29 := (y 1).isLt
  have h2 : (y 2).val < 128 := (y 2).isLt
  show B ((cfg0.win 2).xinj (grid0.coords t) y) = G (((cfg0.win 2).blk t).view.emb y)
  have hB : (cfg0.win 2).xinj (grid0.coords t) y = ix3 (⟨(y 0).val, h0⟩ : Fin 1) (⟨(y 1).val, h1⟩ : Fin 29) (⟨(y 2).val, h2⟩ : Fin 128) :=
    funext fun a => Fin.ext (by match a with | ⟨0, _⟩ => rfl | ⟨1, _⟩ => rfl | ⟨2, _⟩ => rfl)
  have hG : ((cfg0.win 2).blk t).view.emb y
      = ix3 (batchOf t) (⟨(y 1).val, h1⟩ : Fin 29) (channel (tileOf t) (⟨(y 2).val, h2⟩ : Fin 128)) := by
    funext a; apply Fin.ext
    match a with
    | ⟨0, _⟩ => show win0_2.index t (0 : Fin 3) * 1 + 1 * (y 0).val = t.val / 4; omega
    | ⟨1, _⟩ => show win0_2.index t (1 : Fin 3) * 29 + 1 * (y 1).val = (y 1).val; omega
    | ⟨2, _⟩ => show win0_2.index t (2 : Fin 3) * 128 + 1 * (y 2).val = t.val % 4 * 128 + (y 2).val; omega
  rw [hB, hG]
  exact h _ _ _

/-- What point `t` writes back is its block of the pooled array. -/
theorem flushed_eq (c : Dev nD) (t : Fin cfg0.N) :
    (dats m 0 c).flushed 2 t = ((cfg0.win 2).blk t).view.read (Elt Ideal) (pooled (scores m c) (feats m c)) := by
  show (cfg0.win 2).cut (grid0.coords t) ((dats m 0 c).after 2 t) = _
  rw [after0_2, output_after]
  exact block_read_eq t _ _ (fun u k c' => by rw [pooledBlock_ix3, pooled_ix3])

/-- An index of the array is in point `t`'s block iff each coordinate is in the block's range on its axis. -/
theorem mem_blk (t : Fin cfg0.N) (i : S16x29x512.Idx) :
    i ∈ ((cfg0.win 2).blk t).view.set ↔ ∀ a : Fin 3, win0_2.index t a * S1x29x128.size a ≤ (i a).val ∧ (i a).val < win0_2.index t a * S1x29x128.size a + S1x29x128.size a := by
  show i ∈ ((View.whole main_v2).slice (win0_2.rect t)).set ↔ _
  rw [View.set_slice_whole, Rect.mem_set_unit]
  exact Iff.rfl

/-- Every entry of the array lies in the block some point writes back. -/
theorem covered (i : S16x29x512.Idx) :
    ∃ t : Fin cfg0.N, (cfg0.win 2).flush t = true ∧ i ∈ ((cfg0.win 2).blk t).view.set := by
  have hi0 : (i 0).val < 16 := (i 0).isLt
  have hi1 : (i 1).val < 29 := (i 1).isLt
  have hi2 : (i 2).val < 512 := (i 2).isLt
  obtain ⟨t, tv⟩ : ∃ t : Fin cfg0.N, t.val = (i 0).val * 4 + (i 2).val / 128 :=
    ⟨⟨(i 0).val * 4 + (i 2).val / 128, by rw [N64]; omega⟩, rfl⟩
  obtain ⟨-, -, -, -, -, -, e0, e1, e2⟩ := idx_facts t
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 29 ≤ (i 1).val ∧ (i 1).val < win0_2.index t (1 : Fin 3) * 29 + 29; omega
  | ⟨2, _⟩ => show win0_2.index t (2 : Fin 3) * 128 ≤ (i 2).val ∧ (i 2).val < win0_2.index t (2 : Fin 3) * 128 + 128; omega

/-- After the last point the result array of the region holds the pooled features. -/
theorem final (c : Dev nD) : (dats m 0 c).arrAt 2 cfg0.N = pooled (scores m c) (feats m c) :=
  (dats m 0 c).arrAt_eq_of_cover 2 (pooled (scores m c) (feats m c)) (fun t _ => flushed_eq m c t) (covered)

end Cert.KernelIdeal.Region

end
-- ==== Proof.Result.lean ====
/-
  The whole result as one function of the two argument arrays.

  Both programs reshape the scores [16, 29, 128, 128] and the features [16, 512, 128, 128] to rows of 16384
  positions (the same row-major re-indexing), pool, and then rearrange the pooled [16, 29, 512] array the same way:
  the class and channel axes swapped, and a trailing unit axis added. The reshapes and the rearrangement are the
  same operations on both sides, so they are named here once and never opened: the two programs agree as soon as
  the pooled arrays between them do.
-/
import proofs.«151106_j38611755991120_2_alg».proof.Proof.Softmax

noncomputable section

namespace Cert.Pooling

open Idealize.ShloMosaic

theorem scores_casts : (⟨4, ![16, 29, 128, 128]⟩ : Shape).ShapeCasts ⟨3, ![16, 29, 16384]⟩ := by decide
theorem feats_casts : (⟨4, ![16, 512, 128, 128]⟩ : Shape).ShapeCasts ⟨3, ![16, 512, 16384]⟩ := by decide
theorem swap_transposes : (⟨3, ![16, 29, 512]⟩ : Shape).Transposes [0, 2, 1] ⟨3, ![16, 512, 29]⟩ := by decide
theorem unit_bcast : (⟨3, ![16, 512, 29]⟩ : Shape).BroadcastsInDim ⟨4, ![16, 512, 29, 1]⟩ (![0, 1, 2] : Fin 3 → Fin 4) := by decide

/-- The scores with their two spatial axes flattened to one axis of positions. -/
def flatScores (x : (⟨4, ![16, 29, 128, 128]⟩ : Shape).Idx → EReal) : Scores :=
  shapeCast ⟨3, ![16, 29, 16384]⟩ x scores_casts

/-- The features with their two spatial axes flattened likewise. -/
def flatFeats (x : (⟨4, ![16, 512, 128, 128]⟩ : Shape).Idx → EReal) : Features :=
  shapeCast ⟨3, ![16, 512, 16384]⟩ x feats_casts

/-- The pooled array rearranged as the result: (batch entry, channel, class, 1). -/
def arranged (z : (⟨3, ![16, 29, 512]⟩ : Shape).Idx → EReal) : (⟨4, ![16, 512, 29, 1]⟩ : Shape).Idx → EReal :=
  broadcastInDim ⟨4, ![16, 512, 29, 1]⟩ ![0, 1, 2] unit_bcast (transpose ⟨3, ![16, 512, 29]⟩ [0, 2, 1] z swap_transposes)

/-- The result of both programs, of the features `f` and the scores `p`. -/
def result (f : (⟨4, ![16, 512, 128, 128]⟩ : Shape).Idx → EReal) (p : (⟨4, ![16, 29, 128, 128]⟩ : Shape).Idx → EReal) :
    (⟨4, ![16, 512, 29, 1]⟩ : Shape).Idx → EReal :=
  arranged (pooled (flatScores p) (flatFeats f))

end Cert.Pooling

end
-- ==== Proof.WholeRun.lean ====
/-
  The kernel program as a whole: the host operations around the region, and the run.

  Before the region the host flattens the scores and the features (`scores_eq`, `feats_eq`: the region finds
  `flatScores`, `flatFeats` of the arguments). After it the host swaps the class and channel axes of the region's
  result array and adds the trailing unit axis (`arranged_eq`): the program's result is `Pooling.arranged` of what the
  region left, which is the pooled array (`Region.final`). So every execution ends with the result at
  `Pooling.result` of the two arguments, and the arguments unchanged.
-/
import proofs.«151106_j38611755991120_2_alg».proof.Proof.Region
import proofs.«151106_j38611755991120_2_alg».proof.Proof.Result
import Idealize.ShloMosaic.Lib.StableHlo.Run

noncomputable section

open Idealize.ShloMosaic Idealize.ShloMosaic.TcCoe Idealize.SL.Sem

namespace Cert.KernelIdeal.WholeRun

open Idealize.ShloMosaic.StableHlo
open Cert.KernelIdeal Cert.KernelIdeal.Gen Cert.Pooling Cert.KernelIdeal.Carried Cert.KernelIdeal.Region

variable (m : (ℓ : Loc nD τ sig) → Buf (Elt Ideal) ℓ) (ρ : Dev nD → PrngReg)

/-- The score array the region finds is the flattened scores argument. -/
theorem scores_eq (c : Dev nD) : scores m c = flatScores (m ((c : Thread nD τ).loc main_arg1)) := by
  show StableHlo.after hostOps0 (fun b => m (c, b)) (Proc.devRef .tc main_v0) = _
  after_results
  rfl

/-- The feature array the region finds is the flattened features argument. -/
theorem feats_eq (c : Dev nD) : feats m c = flatFeats (m ((c : Thread nD τ).loc main_arg0)) := by
  show StableHlo.after hostOps0 (fun b => m (c, b)) (Proc.devRef .tc main_v1) = _
  after_results
  rfl

/-- The program's result after the host operations that follow the region: the region's array, rearranged. -/
theorem arranged_eq (c : Dev nD) :
    Pipeline.afterTail₀ cfgs (dats m) 0 (V0 m) [hostOps1] c main_v4 = arranged (pooled (scores m c) (feats m c)) := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v2)
      = pooled (scores m c) (feats m c) :=
    (Pipeline.withArrays_arr spec0 launch0.win.arr_inj c _ _ 2).trans (final m c)
  rw [e]
  generalize pooled (scores m c) (feats m c) = z
  rfl

/-- In terms of the arguments. -/
theorem result_eq (c : Dev nD) :
    Pipeline.afterTail₀ cfgs (dats m) 0 (V0 m) [hostOps1] c main_v4
      = result (m ((c : Thread nD τ).loc main_arg0)) (m ((c : Thread nD τ).loc main_arg1)) := by
  rw [arranged_eq, scores_eq, feats_eq]
  rfl

/-- Every weakly fair execution of the kernel program terminates, fault-free, with its result at `Pooling.result` of
    the arguments and the arguments unchanged. -/
theorem run : θ_run defs (onTc (τ := τ) (main (F := Ideal))) ⟨m, fun _ => 0, ρ⟩ fun r => ∀ c : Dev nD,
      r.2.mem ((c.tc : Thread nD τ).loc main_v4)
        = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.WholeRun

end
-- ==== Proof.Reference.lean ====
/-
  The reference computes the softmax-weighted pooling.

  Its stages, read at an index: the scores times the unit factor (the factor on the LEFT here: `scaled_comm`'s
  commutation); the row maximum as a fold of `max` from −∞ over the positions, then once more `max` with −∞
  (`max_negInf_rowMax`); the exponential of the shifted score; the row sum from the zero word; the quotient; and
  the batched contraction over the positions. Together: stage `%15` is `Pooling.pooled` of the two reshaped
  arguments, and the last two stages — the swap of the class and channel axes and the trailing unit axis — make the
  result `Pooling.result` of the arguments.
-/
import proofs.«151106_j38611755991120_2_alg».proof.Proof.Gen.ReferenceIdeal.Read
import proofs.«151106_j38611755991120_2_alg».proof.Proof.Softmax
import proofs.«151106_j38611755991120_2_alg».proof.Proof.Result

noncomputable section

namespace Cert.ReferenceIdeal.RefValue

open Idealize.ShloMosaic Idealize.ShloMosaic.ValueIdx
open Cert.ReferenceIdeal Cert.ReferenceIdeal.Gen Cert.ReferenceIdeal.Read Cert.Pooling

variable (x0 : (⟨S16x512x128x128, .f32⟩ : BufTy).Contents (Elt Ideal)) (x1 : (⟨S16x29x128x128, .f32⟩ : BufTy).Contents (Elt Ideal))

/-- The reshaped scores, as the specification's score array. -/
abbrev scores : Scores := val_main_v0 (F := Ideal) x1
/-- The reshaped features, as the specification's feature array. -/
abbrev feats : Features := val_main_v1 (F := Ideal) x0

theorem hred : S16x29x16384.Reduces [2] S16x29 := by decide

/-- Position `s` inserted on the reduced axis of `(b, k)` is `(b, k, s)`. -/
theorem lift_eq (b : Fin 16) (k : Fin 29) (s : Fin 16384) : hred.lift (ix2 b k) s = ix3 b k s :=
  funext fun a => Fin.ext (by match a with | ⟨0, _⟩ => rfl | ⟨1, _⟩ => rfl | ⟨2, _⟩ => rfl)

/-- Stage `%3`: the score times the unit factor. -/
theorem scaled_apply (b : Fin 16) (k : Fin 29) (s : Fin 16384) :
    val_main_v3 (F := Ideal) x1 (ix3 b k s) = scaled (scoreRow (scores x1) b k) s := by
  rw [val_main_v3_apply, val_main_v2_apply, val_main_cst_apply]
  simp only [Ideal.mulf_def, Ideal.ofBits_def]
  exact mul_comm _ _

/-- Stage `%4`: the row maximum, from −∞. -/
theorem rowMax_apply (b : Fin 16) (k : Fin 29) :
    val_main_v4 (F := Ideal) x1 (ix2 b k) = rowMax (scoreRow (scores x1) b k) := by
  unfold val_main_v4
  refine (Host.reduce_eq_fold_single (FloatOps.maximumf (F := Ideal) (φ := .f32)) (val_main_v3 (F := Ideal) x1) (val_main_cst_0 (F := Ideal)) reducesTo_S16x29x16384_S16x29_d2 hred h_S_ (ix2 b k)).trans ?_
  have hf : (val_main_v3 (F := Ideal) x1 ∘ hred.lift (ix2 b k)) = scaled (scoreRow (scores x1) b k) :=
    funext fun s => (congrArg (val_main_v3 (F := Ideal) x1) (lift_eq b k s)).trans (scaled_apply x1 b k s)
  rw [hf]
  rfl

/-- Stage `%10`: the exponential of the score shifted by the row maximum (the second maximum with −∞ absorbed). -/
theorem rowExp_apply (b : Fin 16) (k : Fin 29) (s : Fin 16384) :
    val_main_v10 (F := Ideal) x1 (ix3 b k s) = rowExp (scoreRow (scores x1) b k) s := by
  have e : idx_main_v7 (idx_main_v8 (ix3 b k s)) = ix2 b k :=
    funext fun a => Fin.ext (by match a with | ⟨0, _⟩ => rfl | ⟨1, _⟩ => rfl)
  rw [val_main_v10_apply, val_main_v9_apply, val_main_v8_apply, val_main_v7_apply, e, val_main_v6_apply,
    val_main_v5_apply, val_main_cst_1_apply, rowMax_apply, scaled_apply]
  simp only [Ideal.hostUnary_exp_def, Ideal.subf_def, Ideal.maximumf_def, Ideal.ofBits_def]
  rw [max_negInf_rowMax]
  rfl

/-- Stage `%11`: the row sum of the exponentials. -/
theorem rowSum_apply (b : Fin 16) (k : Fin 29) :
    val_main_v11 (F := Ideal) x1 (ix2 b k) = ∑ s : Fin 16384, rowExp (scoreRow (scores x1) b k) s := by
  rw [val_main_v11_apply]
  show Ideal.ofBits .f32 0x00000000#32 + _ = _
  rw [Ideal.ofBits_zero_f32, zero_add]
  refine Finset.sum_congr rfl fun s _ => ?_
  have e : idx_main_v11 (ix2 b k) s = ix3 b k s :=
    funext fun a => Fin.ext (by match a with | ⟨0, _⟩ => rfl | ⟨1, _⟩ => rfl | ⟨2, _⟩ => rfl)
  rw [e, rowExp_apply]

/-- Stage `%14`: the softmax weight. -/
theorem weight_apply (b : Fin 16) (k : Fin 29) (s : Fin 16384) :
    val_main_v14 (F := Ideal) x1 (ix3 b k s) = weight (scoreRow (scores x1) b k) s := by
  have e : idx_main_v12 (idx_main_v13 (ix3 b k s)) = ix2 b k :=
    funext fun a => Fin.ext (by match a with | ⟨0, _⟩ => rfl | ⟨1, _⟩ => rfl)
  rw [val_main_v14_apply, val_main_v13_apply, val_main_v12_apply, e, rowSum_apply, rowExp_apply]
  rfl

/-- Stage `%15`, the contraction over the positions, is the pooling of the two reshaped arguments. -/
theorem pooled_eq : val_main_v15 (F := Ideal) x0 x1 = pooled (scores x1) (feats x0) := by
  funext i
  obtain ⟨b, k, c, rfl⟩ : ∃ (b : Fin 16) (k : Fin 29) (c : Fin 512), i = ix3 b k c := ⟨i 0, i 1, i 2, eq_ix3 i⟩
  rw [val_main_v15_apply, pooled_ix3]
  unfold pooledAt
  refine Finset.sum_congr rfl fun s _ => ?_
  have hl : lidx_main_v15 (ix3 b k c) s = ix3 b k s :=
    funext fun a => Fin.ext (by match a with | ⟨0, _⟩ => rfl | ⟨1, _⟩ => rfl | ⟨2, _⟩ => rfl)
  have hr : ridx_main_v15 (ix3 b k c) s = ix3 b c s :=
    funext fun a => Fin.ext (by match a with | ⟨0, _⟩ => rfl | ⟨1, _⟩ => rfl | ⟨2, _⟩ => rfl)
  rw [hl, hr, weight_apply]

/-- The reference's result: the pooled array rearranged, of the flattened arguments. -/
theorem result_eq : val_main_v17 (F := Ideal) x0 x1 = result x0 x1 := by
  unfold val_main_v17 val_main_v16
  rw [pooled_eq]
  rfl

end Cert.ReferenceIdeal.RefValue

end
-- ==== Proof.lean ====
/-
  Spatial-gather pooling: a fused kernel against its plain reference, on the extended reals.

  Both programs take features f32[16, 512, 128, 128] and scores f32[16, 29, 128, 128], flatten the two spatial
  axes to 16384 positions, turn every score row into softmax weights over the positions, and pool the features
  with them:  out (b, c, k, 0) = ∑ s, softmax (scores (b, k, ·)) s · features (b, c, s).

  The reference does this with whole-array host operations. The kernel walks a 16 × 4 grid (batch entry, tile of
  128 channels): at the first tile of a batch entry it computes that entry's softmax weights into a scratch
  buffer, which the three later tiles read; every tile contracts the scratch with its feature block over the
  positions and writes a [1, 29, 128] block of a [16, 29, 512] array, which the host then rearranges exactly as the
  reference rearranges its own.

  The proof: `Softmax` states the pooled array as one function; `Payloads`, `Blocks` read the kernel body's two stored
  values as rows of it; `Pieces`, `Carried` follow the scratch buffer through the grid by induction on the point;
  `Region` assembles the 64 written blocks into the array; `WholeRun` adds the host operations around the region;
  `Reference` reads the reference's stages as the same function. The two sides meet by commutativity of the
  product and `max (−∞, x) = x`; no finiteness of the inputs is used. The kernel's rounding of the weights and the
  features to bf16 before the matrix product is the identity on the extended reals, and the idealization rewrote
  nothing, so `preserves` is trivial.
-/
import proofs.«151106_j38611755991120_2_alg».proof.Defs
import proofs.«151106_j38611755991120_2_alg».proof.Proof.Gen.Kernel
import proofs.«151106_j38611755991120_2_alg».proof.Proof.Gen.Kernel.Skeleton
import proofs.«151106_j38611755991120_2_alg».proof.Proof.Gen.Kernel.Launch
import proofs.«151106_j38611755991120_2_alg».proof.Proof.Gen.Kernel.Points
import proofs.«151106_j38611755991120_2_alg».proof.Proof.Gen.Kernel.Frame
import proofs.«151106_j38611755991120_2_alg».proof.Proof.Gen.KernelIdeal
import proofs.«151106_j38611755991120_2_alg».proof.Proof.Gen.KernelIdeal.Skeleton
import proofs.«151106_j38611755991120_2_alg».proof.Proof.Gen.KernelIdeal.Launch
import proofs.«151106_j38611755991120_2_alg».proof.Proof.Gen.KernelIdeal.Points
import proofs.«151106_j38611755991120_2_alg».proof.Proof.Gen.KernelIdeal.Frame
import proofs.«151106_j38611755991120_2_alg».proof.Proof.Gen.ReferenceIdeal
import proofs.«151106_j38611755991120_2_alg».proof.Proof.Gen.ReferenceIdeal.Run
import proofs.«151106_j38611755991120_2_alg».proof.Proof.Gen.ReferenceIdeal.Read
import proofs.«151106_j38611755991120_2_alg».proof.Proof.Gen.Pre_finite_inputs
import proofs.«151106_j38611755991120_2_alg».proof.Proof.WholeRun
import proofs.«151106_j38611755991120_2_alg».proof.Proof.Reference
import Idealize.ShloMosaic.Adequacy
import Idealize.ShloMosaic.Init

noncomputable section

namespace Cert.Proof

open Idealize.ShloMosaic Idealize.SL.Sem

/-- The two kernel programs run, fault-free, and leave their arguments as they were: the generated frames. -/
theorem frame_kernel : Cert.frame_Kernel := fun m ρ _ => Cert.Kernel.Gen.frame m ρ
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals both programs end with `Pooling.result` of the features and the scores: the kernel by
    its run read through the region and the host operations around it, the reference by its stages read one by
    one, from arguments that agree. -/
theorem algebraic : Cert.algebraic_KernelIdeal_ReferenceIdeal := by
  intro m ρ m' ρ' _ hagree
  refine ⟨_, Cert.KernelIdeal.WholeRun.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v17_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
